-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S1x128 : Shape := ⟨2, ![1, 128]⟩
abbrev S50000x1 : Shape := ⟨2, ![50000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 35
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S50000x1, .f32⟩
  | .hbm, ⟨34, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S128_S1x128 : S128.ShapeCasts S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageRow.lean ====
/-
  One node's output row of a mean-aggregating graph layer followed by a layer norm and a clamp at zero, as a
  function of that node's own data, on the extended reals with every operation exact.

  A node has a feature row x (128 entries), the sum s of its in-neighbours' feature rows, and the number c of its
  in-neighbours. The aggregated row is s / max(c, 1): the mean of the neighbours' rows, or s itself (the zero row)
  for a node with no neighbour. The linear stage adds three rows of length 128: the aggregated row times W_l, the
  node's own row times W_r, and the bias b_l. The layer norm subtracts the row's mean (its sum divided by 128),
  multiplies by the reciprocal square root of the row's variance (the mean of the squared differences) plus ε,
  scales entry j by γ_j and shifts it by β_j. The result is clamped below at 0.

  The two programs group the linear stage's three terms differently, (A + B) + b against (A + b) + B. Addition on
  the extended reals is commutative and associative at the infinities too, so the groupings agree for every
  input: no entry has to be finite.
-/
import Idealize.ShloMosaic.PureOps.Ideal
import Idealize.ShloMosaic.Lib.ValueIdx

noncomputable section

namespace Cert.SageRow

open Idealize.ShloMosaic

/-- Row p of a matrix with 128 columns. -/
abbrev rowOf {n : ℕ} (v : (⟨2, ![n, 128]⟩ : Shape).Idx → EReal) (p : Fin n) : Fin 128 → EReal :=
  fun k => v (ValueIdx.ix2 p k)

/-- A 128 × 128 matrix by row and column. -/
abbrev matOf (w : (⟨2, ![128, 128]⟩ : Shape).Idx → EReal) : Fin 128 → Fin 128 → EReal :=
  fun k j => w (ValueIdx.ix2 k j)

/-- A vector of length 128 by position. -/
abbrev vecOf (v : (⟨1, ![128]⟩ : Shape).Idx → EReal) : Fin 128 → EReal :=
  fun j => v (ValueIdx.ix1 j)

variable (s x : Fin 128 → EReal) (c : EReal) (Wl Wr : Fin 128 → Fin 128 → EReal) (bl γ β : Fin 128 → EReal)

/-- The aggregated row: the neighbours' summed features over their number, the number taken to be at least 1. -/
def agg (k : Fin 128) : EReal := Ideal.div (s k) (max c (Ideal.ofBits .f32 0x3F800000#32))

/-- The linear stage, the aggregated and the own product added first and the bias last. -/
def lin (j : Fin 128) : EReal := (∑ k, agg s c k * Wl k j + ∑ k, x k * Wr k j) + bl j

/-- The linear stage, the bias added to the aggregated product first and the own product last. -/
def linBiasFirst (j : Fin 128) : EReal := (∑ k, agg s c k * Wl k j + bl j) + ∑ k, x k * Wr k j

/-- The two groupings of the three terms are one row: (A + b) + B = (A + B) + b in any commutative monoid. -/
theorem linBiasFirst_eq : linBiasFirst s x c Wl Wr bl = lin s x c Wl Wr bl :=
  funext fun _ => add_right_comm _ _ _

variable (o : Fin 128 → EReal)

/-- A row's mean: its sum over 128. -/
def mean : EReal := Ideal.div (∑ j, o j) (Ideal.ofBits .f32 0x43000000#32)

/-- A row's entry less the row's mean. -/
def centred (j : Fin 128) : EReal := o j - mean o

/-- A row's variance: the mean of the squared differences from its mean. -/
def variance : EReal := Ideal.div (∑ j, centred o j * centred o j) (Ideal.ofBits .f32 0x43000000#32)

/-- A row's entry, centred and divided by the row's standard deviation (ε added under the root). -/
def normalised (j : Fin 128) : EReal := centred o j * Ideal.rsqrt (variance o + Ideal.ofBits .f32 0x3727C5AC#32)

/-- The layer's output entry from the linear stage's row: normalised, scaled, shifted, clamped at 0. -/
def scaledClamped (j : Fin 128) : EReal := max (normalised o j * γ j + β j) (Ideal.ofBits .f32 0x00000000#32)

/-- One node's output row. -/
def out (j : Fin 128) : EReal := scaledClamped γ β (lin s x c Wl Wr bl) j

/-- The layer's whole output, entry by entry: node r's output row from node r's feature row, summed-neighbour row
    and neighbour count, and the shared weights. -/
def layer (X S : (⟨2, ![50000, 128]⟩ : Shape).Idx → EReal) (C : (⟨1, ![50000]⟩ : Shape).Idx → EReal)
    (W_l W_r : (⟨2, ![128, 128]⟩ : Shape).Idx → EReal) (b_l g b : (⟨1, ![128]⟩ : Shape).Idx → EReal) :
    (⟨2, ![50000, 128]⟩ : Shape).Idx → EReal :=
  fun i => out (rowOf S (i 0)) (rowOf X (i 0)) (C (ValueIdx.ix1 (i 0))) (matOf W_l) (matOf W_r) (vecOf b_l) (vecOf g) (vecOf b) (i 1)

end Cert.SageRow

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«143415_j35115652612241_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelRow.lean ====
/-
  What the kernel's body computes at row p, column q of a block of 5000 nodes, on the extended reals.

  The body loads the block's feature rows, summed-neighbour rows and neighbour counts, the two weight matrices
  and the bias, and computes in array operations: the counts clamped at 1 and spread along the rows, the quotient,
  two matrix products into zero accumulators, their sum plus the bias row spread down the block; then the row sums
  kept as a column, over 128, spread back; the differences, their squares, the row sums of those over 128 plus ε,
  the reciprocal square root spread back, and the product. Read at (p, q), each array operation is the matching
  scalar operation on row p: a column spread along the rows reads the column at p, a row spread down the block
  reads the row at q, a row sum kept as a column reads the sum over the row, a matrix product into zero reads the
  sum over the contracted axis, and a change of float format reads the same extended real. So the body's value at
  (p, q) is the normalised linear stage of row p's data at q.
-/
import proofs.«143415_j35115652612241_2_alg».proof.Proof.Gen.KernelIdeal.Value
import proofs.«143415_j35115652612241_2_alg».proof.Proof.SageRow
import proofs.«143415_j35115652612241_2_alg».proof.Proof.LibColumnOps
import proofs.«143415_j35115652612241_2_alg».proof.Proof.LibMatmulIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRow

open Cert.KernelIdeal Cert.KernelIdeal.Gen Idealize.ShloMosaic Idealize.ShloMosaic.ValueIdx
open Cert.SageRow

/-! ## The contraction of the body's two matrix products: row of the result against column of the result -/

local notation "D" => dot_S5000x128_S128x128_S5000x128_1_0_0_1_n_n

theorem lhs_row (j : S5000x128.Idx) (k : (D).contr.Idx) : ((D).lhsIdx j k 0).val = (j 0).val := by
  unfold DotDims.lhsIdx
  rw [dif_neg (show ¬(0 : Fin S5000x128.rank) ∈ (D).lhsBatch by decide), dif_pos (show (0 : Fin S5000x128.rank) ∈ (D).lhsNonContracting by decide)]
  rfl
theorem lhs_contr (j : S5000x128.Idx) (k : (D).contr.Idx) : ((D).lhsIdx j k 1).val = (k ⟨0, by decide⟩).val :=
  (D).lhsIdx_val_of_single rfl j k
theorem rhs_contr (j : S5000x128.Idx) (k : (D).contr.Idx) : ((D).rhsIdx j k 0).val = (k ⟨0, by decide⟩).val :=
  (D).rhsIdx_val_of_single rfl j k
theorem rhs_col (j : S5000x128.Idx) (k : (D).contr.Idx) : ((D).rhsIdx j k 1).val = (j 1).val := by
  unfold DotDims.rhsIdx
  rw [dif_neg (show ¬(1 : Fin S128x128.rank) ∈ (D).rhsBatch by decide), dif_pos (show (1 : Fin S128x128.rank) ∈ (D).rhsNonContracting by decide)]
  rfl

/-- A product of a 5000 × 128 block with a 128 × 128 matrix into the zero accumulator, at (p, q): Σ_k l(p,k) · r(k,q). -/
theorem product_apply {φ₁ φ₂ : FTy} (l : FVec Ideal S5000x128 φ₁) (r : FVec Ideal S128x128 φ₂) (p : Fin 5000) (q : Fin 128) :
    matmul (D) none l r (constant S5000x128 .f32 0x00000000#32) (ix2 p q) = ∑ k : Fin 128, l (ix2 p k) * r (ix2 k q) :=
  LibMatmulIdx.matmul2_apply (D) rfl rfl lhs_row lhs_contr rhs_contr rhs_col none l r (ix2 p q)

/-! ## The linear stage -/

/-- The body's lines up to the bias add, as one array operation of the six loaded blocks. -/
def linBlk (P0 P1 : Vec Ideal S5000x128 .f32) (P2 : Vec Ideal S5000x1 .f32) (P3 P4 : Vec Ideal S128x128 .f32)
    (P5 : Vec Ideal S1x128 .f32) : FVec Ideal S5000x128 .f32 :=
  addf (addf
      (matmul (D) none
        (truncf .bf16 (divf (shapeCast S5000x128 P1 shapeCasts_S5000x128_S5000x128)
          (broadcastTo S5000x128 (maximumf (shapeCast S5000x1 P2 shapeCasts_S5000x1_S5000x1)
            (broadcast S5000x1 (Scalar.ofBits .f32 0x3F800000#32))) broadcasts_S5000x1_S5000x128)) bitsLt_bf16_f32)
        (truncf .bf16 P3 bitsLt_bf16_f32) (constant S5000x128 .f32 0x00000000#32))
      (matmul (D) none (truncf .bf16 P0 bitsLt_bf16_f32) (truncf .bf16 P4 bitsLt_bf16_f32)
        (constant S5000x128 .f32 0x00000000#32)))
    (broadcastTo S5000x128 (shapeCast S1x128 P5 shapeCasts_S1x128_S1x128) broadcasts_S1x128_S5000x128)

/-- At (p, q) the linear stage is the aggregated row p times column q of W_l, plus row p of the features times
    column q of W_r, plus the bias at q. -/
theorem linBlk_apply (P0 P1 : Vec Ideal S5000x128 .f32) (P2 : Vec Ideal S5000x1 .f32) (P3 P4 : Vec Ideal S128x128 .f32)
    (P5 : Vec Ideal S1x128 .f32) (p : Fin 5000) (q : Fin 128) :
    linBlk P0 P1 P2 P3 P4 P5 (ix2 p q)
      = lin (rowOf P1 p) (rowOf P0 p) (P2 (ix2 p (0 : Fin 1))) (matOf P3) (matOf P4) (rowOf P5 (0 : Fin 1)) q := by
  unfold linBlk lin
  refine congrArg₂ (· + ·) (congrArg₂ (· + ·) ?_ ?_) ?_
  · refine (product_apply _ _ p q).trans (Finset.sum_congr rfl fun k _ => congrArg (· * P3 (ix2 k q)) ?_)
    show Ideal.div (shapeCast S5000x128 P1 shapeCasts_S5000x128_S5000x128 (ix2 p k))
        (broadcastTo S5000x128 (maximumf (F := Ideal) (shapeCast S5000x1 P2 shapeCasts_S5000x1_S5000x1)
          (broadcast S5000x1 (Scalar.ofBits .f32 0x3F800000#32))) broadcasts_S5000x1_S5000x128 (ix2 p k)) = _
    rw [shapeCast_self, LibColumnOps.broadcastTo_col_apply, shapeCast_self]
    rfl
  · exact product_apply _ _ p q
  · refine (broadcastTo_1b_ab_apply _ _ p q).trans ?_
    rw [shapeCast_self]

/-! ## The layer norm -/

/-- A block's row sums over 128, kept as a column: the body's sum along the rows, the cast to a column and the
    quotient by 128. -/
def meanCol (o : FVec Ideal S5000x128 .f32) : FVec Ideal S5000x1 .f32 :=
  divf (shapeCast S5000x1 (multiReduction .add [1] S5000 o 0x00000000#32 reduces_S5000x128_S5000 (.inl rfl) rfl)
    shapeCasts_S5000_S5000x1) (broadcast S5000x1 (Scalar.ofBits .f32 0x43000000#32))

theorem meanCol_apply (o : FVec Ideal S5000x128 .f32) (p : Fin 5000) :
    meanCol o (ix2 p (0 : Fin 1)) = Ideal.div (∑ j : Fin 128, o (ix2 p j)) (Ideal.ofBits .f32 0x43000000#32) := by
  unfold meanCol
  refine congrArg (fun t => Ideal.div t (Ideal.ofBits .f32 0x43000000#32)) ?_
  refine (LibKeepdims.shapeCast_col_apply _ shapeCasts_S5000_S5000x1 p (0 : Fin 1)).trans ?_
  exact LibKeepdims.sum_axis1_apply o 0x00000000#32 reduces_S5000x128_S5000 (.inl rfl) rfl p

/-- A block less its rows' means. -/
def centredBlk (o : FVec Ideal S5000x128 .f32) : FVec Ideal S5000x128 .f32 :=
  subf o (broadcastTo S5000x128 (meanCol o) broadcasts_S5000x1_S5000x128)

theorem centredBlk_apply (o : FVec Ideal S5000x128 .f32) (p : Fin 5000) (q : Fin 128) :
    centredBlk o (ix2 p q) = centred (rowOf o p) q := by
  unfold centredBlk centred mean
  show o (ix2 p q) - broadcastTo S5000x128 (meanCol o) broadcasts_S5000x1_S5000x128 (ix2 p q) = _
  rw [LibColumnOps.broadcastTo_col_apply, meanCol_apply]

/-- A block with each row centred and divided by its standard deviation. -/
def normalisedBlk (o : FVec Ideal S5000x128 .f32) : FVec Ideal S5000x128 .f32 :=
  mulf (centredBlk o) (broadcastTo S5000x128
    (rsqrt (addf (meanCol (mulf (centredBlk o) (centredBlk o))) (broadcast S5000x1 (Scalar.ofBits .f32 0x3727C5AC#32))))
    broadcasts_S5000x1_S5000x128)

theorem normalisedBlk_apply (o : FVec Ideal S5000x128 .f32) (p : Fin 5000) (q : Fin 128) :
    normalisedBlk o (ix2 p q) = normalised (rowOf o p) q := by
  unfold normalisedBlk normalised variance
  show centredBlk o (ix2 p q) * broadcastTo S5000x128 _ broadcasts_S5000x1_S5000x128 (ix2 p q) = _
  rw [LibColumnOps.broadcastTo_col_apply, centredBlk_apply]
  show _ * Ideal.rsqrt (meanCol (mulf (centredBlk o) (centredBlk o)) (ix2 p (0 : Fin 1)) + Ideal.ofBits .f32 0x3727C5AC#32) = _
  rw [meanCol_apply]
  refine congrArg (fun t => centred (rowOf o p) q * Ideal.rsqrt (Ideal.div t _ + _)) (Finset.sum_congr rfl fun j _ => ?_)
  show centredBlk o (ix2 p j) * centredBlk o (ix2 p j) = _
  rw [centredBlk_apply]

/-! ## The body's first payload -/

/-- The body's arithmetic up to the normalised block is the layer norm of the linear stage. -/
theorem pay2_eq (P0 P1 : Vec Ideal S5000x128 .f32) (P2 : Vec Ideal S5000x1 .f32) (P3 P4 : Vec Ideal S128x128 .f32)
    (P5 : Vec Ideal S1x128 .f32) : k0_pay2 P0 P1 P2 P3 P4 P5 = normalisedBlk (linBlk P0 P1 P2 P3 P4 P5) := rfl

/-- At (p, q) it is the normalised linear stage of row p's data, at q. -/
theorem pay2_apply (P0 P1 : Vec Ideal S5000x128 .f32) (P2 : Vec Ideal S5000x1 .f32) (P3 P4 : Vec Ideal S128x128 .f32)
    (P5 : Vec Ideal S1x128 .f32) (p : Fin 5000) (q : Fin 128) :
    k0_pay2 P0 P1 P2 P3 P4 P5 (ix2 p q)
      = normalised (lin (rowOf P1 p) (rowOf P0 p) (P2 (ix2 p (0 : Fin 1))) (matOf P3) (matOf P4) (rowOf P5 (0 : Fin 1))) q := by
  rw [pay2_eq, normalisedBlk_apply]
  exact congrArg (fun o => normalised o q) (funext fun j => linBlk_apply P0 P1 P2 P3 P4 P5 p j)

/-! ## The block the body stores -/

/-- The body's last lines over a variable for the normalised block: at (p, q) the entry times the scale row at q, plus
    the shift row at q, clamped below at 0. -/
theorem pay1_apply (Y : FVec Ideal S5000x128 .f32) (P6 P7 : Vec Ideal S1x128 .f32) (p : Fin 5000) (q : Fin 128) :
    k0_pay1 Y P6 P7 (ix2 p q)
      = max (Y (ix2 p q) * P6 (ix2 (0 : Fin 1) q) + P7 (ix2 (0 : Fin 1) q)) (Ideal.ofBits .f32 0x00000000#32) := by
  unfold k0_pay1
  show max (Y (ix2 p q) * broadcastTo S5000x128 (shapeCast S1x128 P6 shapeCasts_S1x128_S1x128) broadcasts_S1x128_S5000x128 (ix2 p q)
      + broadcastTo S5000x128 (shapeCast S1x128 P7 shapeCasts_S1x128_S1x128) broadcasts_S1x128_S5000x128 (ix2 p q))
      (Ideal.ofBits .f32 0x00000000#32) = _
  rw [broadcastTo_1b_ab_apply, broadcastTo_1b_ab_apply, shapeCast_self, shapeCast_self]

/-- The stored block at (p, q), over variables for the eight loaded blocks: node p's output row at q, from row p of
    the feature and summed-neighbour blocks, the count at p, the weights, and the one-row bias, scale and shift. -/
theorem block_apply (P0 P1 : Vec Ideal S5000x128 .f32) (P2 : Vec Ideal S5000x1 .f32) (P3 P4 : Vec Ideal S128x128 .f32)
    (P5 P6 P7 : Vec Ideal S1x128 .f32) (p : Fin 5000) (q : Fin 128) :
    k0_pay1 (k0_pay2 P0 P1 P2 P3 P4 P5) P6 P7 (ix2 p q)
      = out (rowOf P1 p) (rowOf P0 p) (P2 (ix2 p (0 : Fin 1))) (matOf P3) (matOf P4) (rowOf P5 (0 : Fin 1))
          (rowOf P6 (0 : Fin 1)) (rowOf P7 (0 : Fin 1)) q := by
  rw [pay1_apply, pay2_apply]
  rfl

end Cert.KernelIdeal.BlockRow

end
-- ==== Proof.KernelArray.lean ====
/-
  The kernel's output array after the run, as one function of the arrays its windows stage.

  The grid has 10 points. Point t stages rows 5000·t … 5000·t + 4999 of the feature array, of the summed-neighbour
  array and of the count column, and the two weight matrices and the three one-row arrays whole; it writes back
  rows 5000·t … 5000·t + 4999 of the output. A block coordinate is the window's block index times the block's
  extent plus the coordinate inside the block, so entry (p, q) of point t's blocks is entry (5000·t + p, q) of the
  arrays, and what the body stores there is node 5000·t + p's output row at q. The 10 output blocks tile the
  50000 rows (row r lies in block r / 5000), so the array ends as the layer's output at every entry.
-/
import proofs.«143415_j35115652612241_2_alg».proof.Proof.Gen.KernelIdeal.Value
import proofs.«143415_j35115652612241_2_alg».proof.Proof.KernelRow
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.SageRow
open Idealize.ShloMosaic.Pipeline (Dat)

variable (m : (ℓ : Loc nD τ sig) → Buf (Elt Ideal) ℓ) (ρ : Dev nD → PrngReg)

/-- The output from the eight staged arrays: node r's output row from row r of the feature and summed-neighbour
    arrays, the count column at r, the weights, and the one-row bias, scale and shift. -/
def ofWindows (X S : S50000x128.Idx → EReal) (Ccol : S50000x1.Idx → EReal) (W_l : S128x128.Idx → EReal)
    (blRow : S1x128.Idx → EReal) (W_r : S128x128.Idx → EReal) (gRow bRow : S1x128.Idx → EReal) : S50000x128.Idx → EReal :=
  fun i => out (rowOf S (i 0)) (rowOf X (i 0)) (Ccol (ix2 (i 0) (0 : Fin 1))) (matOf W_l) (matOf W_r)
    (rowOf blRow (0 : Fin 1)) (rowOf gRow (0 : Fin 1)) (rowOf bRow (0 : Fin 1)) (i 1)

theorem origin_zero : (![0, 0] : Fin 2 → Nat) = fun _ => 0 := funext fun a => by fin_cases a <;> rfl

/-- The windows' block indices at point t, decided over the 10 points: the three row-blocked inputs and the output
    are at block (t, 0), the five whole-array inputs at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 10 := by have h := t.isLt; have hN : cfg0.N = 10 := N_0; omega

/-- The array row that row p of point t's blocks is. -/
def rowAt (t : Fin cfg0.N) (p : Fin 5000) : Fin 50000 := ⟨t.val * 5000 + p.val, by have := point_lt t; have := p.isLt; omega⟩

/-! ### Entry (p, ·) of each window's block at point t, as an entry of its array -/

theorem emb0 (t : Fin cfg0.N) (p : Fin 5000) (k : Fin 128) : ((cfg0.win 0).blk t).view.emb (ix2 p k) = ix2 (rowAt t p) k := by
  obtain ⟨a0, a1, -⟩ := block_index t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega
theorem emb1 (t : Fin cfg0.N) (p : Fin 5000) (k : Fin 128) : ((cfg0.win 1).blk t).view.emb (ix2 p k) = ix2 (rowAt t p) k := by
  obtain ⟨-, -, a0, a1, -⟩ := block_index t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega
theorem emb2 (t : Fin cfg0.N) (p : Fin 5000) : ((cfg0.win 2).blk t).view.emb (ix2 p (0 : Fin 1)) = ix2 (rowAt t p) (0 : Fin 1) := by
  obtain ⟨-, -, -, -, a0, a1, -⟩ := block_index t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega
theorem emb3 (t : Fin cfg0.N) (k j : Fin 128) : ((cfg0.win 3).blk t).view.emb (ix2 k j) = ix2 k j := by
  obtain ⟨-, -, -, -, -, -, a0, a1, -⟩ := block_index t
  funext a; apply Fin.ext
  match a with
  | ⟨0, _⟩ => show win0_3.index t (0 : Fin 2) * 128 + 1 * k.val = k.val; omega
  | ⟨1, _⟩ => show win0_3.index t (1 : Fin 2) * 128 + 1 * j.val = j.val; omega
theorem emb4 (t : Fin cfg0.N) (j : Fin 128) : ((cfg0.win 4).blk t).view.emb (ix2 (0 : Fin 1) j) = ix2 (0 : Fin 1) j := by
  obtain ⟨-, -, -, -, -, -, -, -, a0, a1, -⟩ := block_index t
  funext a; apply Fin.ext
  match a with
  | ⟨0, _⟩ => show win0_4.index t (0 : Fin 2) * 1 + 1 * 0 = 0; omega
  | ⟨1, _⟩ => show win0_4.index t (1 : Fin 2) * 128 + 1 * j.val = j.val; omega
theorem emb5 (t : Fin cfg0.N) (k j : Fin 128) : ((cfg0.win 5).blk t).view.emb (ix2 k j) = ix2 k j := by
  obtain ⟨-, -, -, -, -, -, -, -, -, -, a0, a1, -⟩ := block_index t
  funext a; apply Fin.ext
  match a with
  | ⟨0, _⟩ => show win0_5.index t (0 : Fin 2) * 128 + 1 * k.val = k.val; omega
  | ⟨1, _⟩ => show win0_5.index t (1 : Fin 2) * 128 + 1 * j.val = j.val; omega
theorem emb6 (t : Fin cfg0.N) (j : Fin 128) : ((cfg0.win 6).blk t).view.emb (ix2 (0 : Fin 1) j) = ix2 (0 : Fin 1) j := by
  obtain ⟨-, -, -, -, -, -, -, -, -, -, -, -, a0, a1, -⟩ := block_index t
  funext a; apply Fin.ext
  match a with
  | ⟨0, _⟩ => show win0_6.index t (0 : Fin 2) * 1 + 1 * 0 = 0; omega
  | ⟨1, _⟩ => show win0_6.index t (1 : Fin 2) * 128 + 1 * j.val = j.val; omega
theorem emb7 (t : Fin cfg0.N) (j : Fin 128) : ((cfg0.win 7).blk t).view.emb (ix2 (0 : Fin 1) j) = ix2 (0 : Fin 1) j := by
  obtain ⟨-, -, -, -, -, -, -, -, -, -, -, -, -, -, a0, a1, -⟩ := block_index t
  funext a; apply Fin.ext
  match a with
  | ⟨0, _⟩ => show win0_7.index t (0 : Fin 2) * 1 + 1 * 0 = 0; omega
  | ⟨1, _⟩ => show win0_7.index t (1 : Fin 2) * 128 + 1 * j.val = j.val; omega
theorem emb8 (t : Fin cfg0.N) (p : Fin 5000) (q : Fin 128) : ((cfg0.win 8).blk t).view.emb (ix2 p q) = ix2 (rowAt t p) q := by
  obtain ⟨-, -, -, -, -, -, -, -, -, -, -, -, -, -, -, -, a0, a1⟩ := block_index t
  funext a; apply Fin.ext
  match a with
  | ⟨0, _⟩ => show win0_8.index t (0 : Fin 2) * 5000 + 1 * p.val = t.val * 5000 + p.val; omega
  | ⟨1, _⟩ => show win0_8.index t (1 : Fin 2) * 128 + 1 * q.val = q.val; omega

/-! ### The write-back's cut, a window's read and the output function, each at an entry, over a variable array -/

/-- The write-back of the output window moves the whole staging block: the window is never cut. -/
theorem cut_apply (t : Fin cfg0.N) (X : S5000x128.Idx → EReal) (p : Fin 5000) (q : Fin 128) :
    (cfg0.win 8).cut (grid0.coords t) X (ix2 p q) = X (ix2 p q) := rfl

theorem ofWindows_apply (X S : S50000x128.Idx → EReal) (Ccol : S50000x1.Idx → EReal) (W_l : S128x128.Idx → EReal)
    (blRow : S1x128.Idx → EReal) (W_r : S128x128.Idx → EReal) (gRow bRow : S1x128.Idx → EReal) (r : Fin 50000) (q : Fin 128) :
    ofWindows X S Ccol W_l blRow W_r gRow bRow (ix2 r q)
      = out (rowOf S r) (rowOf X r) (Ccol (ix2 r (0 : Fin 1))) (matOf W_l) (matOf W_r)
          (rowOf blRow (0 : Fin 1)) (rowOf gRow (0 : Fin 1)) (rowOf bRow (0 : Fin 1)) q := rfl

theorem read0 (t : Fin cfg0.N) (A : S50000x128.Idx → EReal) (p : Fin 5000) (k : Fin 128) :
    ((cfg0.win 0).blk t).view.read (Elt Ideal) A (ix2 p k) = A (ix2 (rowAt t p) k) := by
  show A (((cfg0.win 0).blk t).view.emb (ix2 p k)) = _
  rw [emb0 t p k]
theorem read1 (t : Fin cfg0.N) (A : S50000x128.Idx → EReal) (p : Fin 5000) (k : Fin 128) :
    ((cfg0.win 1).blk t).view.read (Elt Ideal) A (ix2 p k) = A (ix2 (rowAt t p) k) := by
  show A (((cfg0.win 1).blk t).view.emb (ix2 p k)) = _
  rw [emb1 t p k]
theorem read2 (t : Fin cfg0.N) (A : S50000x1.Idx → EReal) (p : Fin 5000) :
    ((cfg0.win 2).blk t).view.read (Elt Ideal) A (ix2 p (0 : Fin 1)) = A (ix2 (rowAt t p) (0 : Fin 1)) := by
  show A (((cfg0.win 2).blk t).view.emb (ix2 p (0 : Fin 1))) = _
  rw [emb2 t p]
theorem read3 (t : Fin cfg0.N) (A : S128x128.Idx → EReal) (k j : Fin 128) :
    ((cfg0.win 3).blk t).view.read (Elt Ideal) A (ix2 k j) = A (ix2 k j) := by
  show A (((cfg0.win 3).blk t).view.emb (ix2 k j)) = _
  rw [emb3 t k j]
theorem read4 (t : Fin cfg0.N) (A : S1x128.Idx → EReal) (j : Fin 128) :
    ((cfg0.win 4).blk t).view.read (Elt Ideal) A (ix2 (0 : Fin 1) j) = A (ix2 (0 : Fin 1) j) := by
  show A (((cfg0.win 4).blk t).view.emb (ix2 (0 : Fin 1) j)) = _
  rw [emb4 t j]
theorem read5 (t : Fin cfg0.N) (A : S128x128.Idx → EReal) (k j : Fin 128) :
    ((cfg0.win 5).blk t).view.read (Elt Ideal) A (ix2 k j) = A (ix2 k j) := by
  show A (((cfg0.win 5).blk t).view.emb (ix2 k j)) = _
  rw [emb5 t k j]
theorem read6 (t : Fin cfg0.N) (A : S1x128.Idx → EReal) (j : Fin 128) :
    ((cfg0.win 6).blk t).view.read (Elt Ideal) A (ix2 (0 : Fin 1) j) = A (ix2 (0 : Fin 1) j) := by
  show A (((cfg0.win 6).blk t).view.emb (ix2 (0 : Fin 1) j)) = _
  rw [emb6 t j]
theorem read7 (t : Fin cfg0.N) (A : S1x128.Idx → EReal) (j : Fin 128) :
    ((cfg0.win 7).blk t).view.read (Elt Ideal) A (ix2 (0 : Fin 1) j) = A (ix2 (0 : Fin 1) j) := by
  show A (((cfg0.win 7).blk t).view.emb (ix2 (0 : Fin 1) j)) = _
  rw [emb7 t j]
theorem read8 (t : Fin cfg0.N) (A : S50000x128.Idx → EReal) (p : Fin 5000) (q : Fin 128) :
    ((cfg0.win 8).blk t).view.read (Elt Ideal) A (ix2 p q) = A (ix2 (rowAt t p) q) := by
  show A (((cfg0.win 8).blk t).view.emb (ix2 p q)) = _
  rw [emb8 t p q]

/-- What point t writes back is block t of the output function of the arrays the windows stage, as the region
    finds them. -/
theorem flushed_eq (c : Dev nD) (t : Fin cfg0.N) :
    (dats m 0 c).flushed 8 t = ((cfg0.win 8).blk t).view.read (Elt Ideal)
      (ofWindows (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7))) := by
  rw [Cert.KernelIdeal.Value.flushed8]
  unfold out0_8
  rw [View.canon_unit_zero origin_zero]
  simp only [View.ld_unit_zero (S := S5000x128) origin_zero, View.ld_unit_zero (S := S5000x1) origin_zero,
    View.ld_unit_zero (S := S128x128) origin_zero, View.ld_unit_zero (S := S1x128) origin_zero]
  funext y
  obtain ⟨p, q, rfl⟩ : ∃ (p : Fin 5000) (q : Fin 128), y = ix2 p q := ⟨y 0, y 1, eq_ix2 y⟩
  rw [cut_apply, read8, ofWindows_apply]
  refine (BlockRow.block_apply (iblk m c 0 t) (iblk m c 1 t) (iblk m c 2 t) (iblk m c 3 t) (iblk m c 5 t) (iblk m c 4 t)
    (iblk m c 6 t) (iblk m c 7 t) p q).trans ?_
  have h0 : rowOf (iblk m c 0 t) p = rowOf (V m c (Pipeline.arrRef spec0 0)) (rowAt t p) := funext fun k => read0 t _ p k
  have h1 : rowOf (iblk m c 1 t) p = rowOf (V m c (Pipeline.arrRef spec0 1)) (rowAt t p) := funext fun k => read1 t _ p k
  have h2 : iblk m c 2 t (ix2 p (0 : Fin 1)) = V m c (Pipeline.arrRef spec0 2) (ix2 (rowAt t p) (0 : Fin 1)) := read2 t _ p
  have h3 : matOf (iblk m c 3 t) = matOf (V m c (Pipeline.arrRef spec0 3)) := funext fun k => funext fun j => read3 t _ k j
  have h4 : rowOf (iblk m c 4 t) (0 : Fin 1) = rowOf (V m c (Pipeline.arrRef spec0 4)) (0 : Fin 1) := funext fun j => read4 t _ j
  have h5 : matOf (iblk m c 5 t) = matOf (V m c (Pipeline.arrRef spec0 5)) := funext fun k => funext fun j => read5 t _ k j
  have h6 : rowOf (iblk m c 6 t) (0 : Fin 1) = rowOf (V m c (Pipeline.arrRef spec0 6)) (0 : Fin 1) := funext fun j => read6 t _ j
  have h7 : rowOf (iblk m c 7 t) (0 : Fin 1) = rowOf (V m c (Pipeline.arrRef spec0 7)) (0 : Fin 1) := funext fun j => read7 t _ j
  rw [h0, h1, h2, h3, h4, h5, h6, h7]

/-- An entry of the output array is in point t's block when its row is in t's 5000 rows. -/
theorem mem_blk (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v22).slice (win0_8.rect t)).set ↔ _
  rw [View.set_slice_whole, Rect.mem_set_unit]
  exact Iff.rfl

/-- Every entry of the output array is in the block of the point its row falls to: row r in block r / 5000. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_8 _, ?_⟩
  rw [mem_blk]
  obtain ⟨-, -, -, -, -, -, -, -, -, -, -, -, -, -, -, -, a0, a1⟩ := block_index ⟨(i 0).val / 5000, by rw [hN]; omega⟩
  intro a
  match a with
  | ⟨0, _⟩ =>
    show win0_8.index _ (0 : Fin 2) * 5000 ≤ (i 0).val ∧ (i 0).val < win0_8.index _ (0 : Fin 2) * 5000 + 5000
    rw [a0]; show (i 0).val / 5000 * 5000 ≤ (i 0).val ∧ (i 0).val < (i 0).val / 5000 * 5000 + 5000; omega
  | ⟨1, _⟩ =>
    show win0_8.index _ (1 : Fin 2) * 128 ≤ (i 1).val ∧ (i 1).val < win0_8.index _ (1 : Fin 2) * 128 + 128
    rw [a1]; omega

/-- The output array after the run is the output function of the arrays the windows stage. -/
theorem final (c : Dev nD) : (dats m 0 c).arrAt 8 cfg0.N
    = ofWindows (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) :=
  (dats m 0 c).arrAt_eq_of_cover 8 _ (fun t _ => flushed_eq m c t) cover

end Cert.KernelIdeal.ArrayValue

end
-- ==== Proof.HostWindows.lean ====
/-
  The arrays the kernel's windows stage, and the kernel's run with its result named.

  Before the one region the kernel's program computes on the host, by the same operations as the reference, the
  summed-neighbour array (a gather of the feature rows at the edges' sources, scatter-added at the edges' targets)
  and the neighbour counts (ones scatter-added at the targets); it reshapes the counts to a column and the bias,
  scale and shift to one-row arrays. So the region finds: the features, the weights as launched; the reference's own
  two scatter stages of the same arguments; and three reshapes. A count column read at (r, 0) is the count at r, a
  one-row array read at (0, j) is the vector at j, so the output function of the staged arrays is the layer's
  output of the arguments. The shared gather and scatter chain is never opened.
-/
import proofs.«143415_j35115652612241_2_alg».proof.Proof.Gen.KernelIdeal.Value
import proofs.«143415_j35115652612241_2_alg».proof.Proof.Gen.ReferenceIdeal.Read
import proofs.«143415_j35115652612241_2_alg».proof.Proof.KernelArray
import proofs.«143415_j35115652612241_2_alg».proof.Proof.LibKeepdims
import Idealize.ShloMosaic.Lib.StableHlo.Run
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.SageRow Cert.KernelIdeal.ArrayValue

variable (m : (ℓ : Loc nD τ sig) → Buf (Elt Ideal) ℓ) (ρ : Dev nD → PrngReg)

/-! ## What the region finds in each staged array -/

theorem staged_features (c : Dev nD) : V m c (Pipeline.arrRef spec0 0) = (m ((c : Thread nD τ).loc main_arg0)) := V_main_arg0 m c
theorem staged_W_l (c : Dev nD) : V m c (Pipeline.arrRef spec0 3) = (m ((c : Thread nD τ).loc main_arg2)) := V_main_arg2 m c
theorem staged_W_r (c : Dev nD) : V m c (Pipeline.arrRef spec0 5) = (m ((c : Thread nD τ).loc main_arg4)) := V_main_arg4 m c

/-- The summed-neighbour array is the reference's first scatter stage of the features and the edges. -/
theorem staged_neighbour_sum (c : Dev nD) :
    (V m c (Pipeline.arrRef spec0 1) : S50000x128.Idx → EReal)
      = Cert.ReferenceIdeal.Read.val_main_v13 (F := Ideal) (m ((c : Thread nD τ).loc main_arg0)) (m ((c : Thread nD τ).loc main_arg1)) := by
  show (V m c main_v13 : S50000x128.Idx → EReal) = _
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0 Cert.ReferenceIdeal.Read.val_main_cst
  dsimp only [V, hostOps0]
  after_results
  rfl

/-- The count column is the reference's second scatter stage of the edges, reshaped to a column. -/
theorem staged_count_column (c : Dev nD) :
    (V m c (Pipeline.arrRef spec0 2) : S50000x1.Idx → EReal)
      = shapeCast S50000x1 (Cert.ReferenceIdeal.Read.val_main_v17 (F := Ideal) (m ((c : Thread nD τ).loc main_arg1))) shapeCasts_S50000_S50000x1 := by
  show (V m c main_v21 : S50000x1.Idx → EReal) = _
  unfold Cert.ReferenceIdeal.Read.val_main_v17 Cert.ReferenceIdeal.Read.val_main_v16 Cert.ReferenceIdeal.Read.val_main_v15 Cert.ReferenceIdeal.Read.val_main_v14 Cert.ReferenceIdeal.Read.val_main_v3 Cert.ReferenceIdeal.Read.val_main_v2
    Cert.ReferenceIdeal.Read.val_main_cst_1 Cert.ReferenceIdeal.Read.val_main_cst_2
  dsimp only [V, hostOps0]
  after_results
  rfl

theorem staged_bias_row (c : Dev nD) :
    (V m c (Pipeline.arrRef spec0 4) : S1x128.Idx → EReal) = shapeCast S1x128 (m ((c : Thread nD τ).loc main_arg3)) shapeCasts_S128_S1x128 := by
  show (V m c main_v18 : S1x128.Idx → EReal) = _
  dsimp only [V, hostOps0]
  after_results
  rfl
theorem staged_scale_row (c : Dev nD) :
    (V m c (Pipeline.arrRef spec0 6) : S1x128.Idx → EReal) = shapeCast S1x128 (m ((c : Thread nD τ).loc main_arg5)) shapeCasts_S128_S1x128 := by
  show (V m c main_v19 : S1x128.Idx → EReal) = _
  dsimp only [V, hostOps0]
  after_results
  rfl
theorem staged_shift_row (c : Dev nD) :
    (V m c (Pipeline.arrRef spec0 7) : S1x128.Idx → EReal) = shapeCast S1x128 (m ((c : Thread nD τ).loc main_arg6)) shapeCasts_S128_S1x128 := by
  show (V m c main_v20 : S1x128.Idx → EReal) = _
  dsimp only [V, hostOps0]
  after_results
  rfl

/-! ## The output function of the staged arrays is the layer's output -/

/-- With the counts as a column and the bias, scale and shift as one-row arrays, the output function reads the count
    at r and the three vectors at j: it is the layer's output. -/
theorem ofWindows_reshaped (X S : S50000x128.Idx → EReal) (C : S50000.Idx → EReal) (W_l W_r : S128x128.Idx → EReal)
    (b_l g b : S128.Idx → EReal) :
    ofWindows X S (shapeCast S50000x1 C shapeCasts_S50000_S50000x1) W_l (shapeCast S1x128 b_l shapeCasts_S128_S1x128) W_r
        (shapeCast S1x128 g shapeCasts_S128_S1x128) (shapeCast S1x128 b shapeCasts_S128_S1x128)
      = layer X S C W_l W_r b_l g b := by
  funext i
  have e1 : rowOf (shapeCast S1x128 b_l shapeCasts_S128_S1x128) (0 : Fin 1) = vecOf b_l :=
    funext fun j => shapeCast_a_1a_apply b_l shapeCasts_S128_S1x128 (0 : Fin 1) j
  have e2 : rowOf (shapeCast S1x128 g shapeCasts_S128_S1x128) (0 : Fin 1) = vecOf g :=
    funext fun j => shapeCast_a_1a_apply g shapeCasts_S128_S1x128 (0 : Fin 1) j
  have e3 : rowOf (shapeCast S1x128 b shapeCasts_S128_S1x128) (0 : Fin 1) = vecOf b :=
    funext fun j => shapeCast_a_1a_apply b shapeCasts_S128_S1x128 (0 : Fin 1) j
  unfold ofWindows layer
  rw [e1, e2, e3, LibKeepdims.shapeCast_col_apply C shapeCasts_S50000_S50000x1 (i 0) (0 : Fin 1)]

/-- The kernel's output array after the run: the layer's output of the arguments, the summed-neighbour array and
    the counts being the reference's two scatter stages of them. -/
theorem output_array (c : Dev nD) :
    (dats m 0 c).arrAt 8 cfg0.N
      = layer (m ((c : Thread nD τ).loc main_arg0))
          (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg2)) (m ((c : Thread nD τ).loc main_arg4)) (m ((c : Thread nD τ).loc main_arg3)) (m ((c : Thread nD τ).loc main_arg5)) (m ((c : Thread nD τ).loc main_arg6)) := by
  rw [ArrayValue.final, staged_features, staged_neighbour_sum, staged_count_column, staged_W_l, staged_bias_row, staged_W_r,
    staged_scale_row, staged_shift_row]
  exact ofWindows_reshaped _ _ _ _ _ _ _ _

/-- The kernel's run: every weakly fair execution terminates with the output array at the layer's output and the
    arguments unchanged. -/
theorem run : θ_run defs (onTc (τ := τ) (main (F := Ideal))) ⟨m, fun _ => 0, ρ⟩ fun r => ∀ c : Dev nD,
      r.2.mem ((c : Thread nD τ).loc main_v22)
        = layer (m ((c : Thread nD τ).loc main_arg0))
            (Cert.ReferenceIdeal.Read.val_main_v13 (F := Ideal) (m ((c : Thread nD τ).loc main_arg0)) (m ((c : Thread nD τ).loc main_arg1)))
            (Cert.ReferenceIdeal.Read.val_main_v17 (F := Ideal) (m ((c : Thread nD τ).loc main_arg1)))
            (m ((c : Thread nD τ).loc main_arg2)) (m ((c : Thread nD τ).loc main_arg4)) (m ((c : Thread nD τ).loc main_arg3)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (output_array m c), (h c).2⟩) (Cert.KernelIdeal.Value.run_blocks m ρ)

end Cert.KernelIdeal.HostValue

end
-- ==== Proof.ReferenceRow.lean ====
/-
  The reference's result at row r, column q, on the extended reals.

  The reference computes on whole arrays of 50000 rows: the neighbour counts clamped at 1, spread to a column and
  along the rows; the quotient of the summed-neighbour array by it; two matrix products; the bias row spread down
  and added to the first product, then the second product added; the row sums over 128 kept as a column; the
  differences; the row sums of their squares over 128 plus ε; the reciprocal square root; the products with the
  scale row, the sums with the shift row, and the clamp at 0. Each stage read at (r, q) is the matching scalar
  operation on row r, so the result at (r, q) is node r's output row at q — with the linear stage's three terms in
  the other grouping, which is the same row. The two scatter stages that produce the summed-neighbour array and the
  counts are kept as they are: the kernel's program computes them by the same operations.
-/
import proofs.«143415_j35115652612241_2_alg».proof.Proof.Gen.ReferenceIdeal.Read
import proofs.«143415_j35115652612241_2_alg».proof.Proof.SageRow
import Idealize.ShloMosaic.Lib.ValueIdx
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx
open Cert.SageRow

abbrev Nodes := (⟨S50000x128, .f32⟩ : BufTy).Contents (Elt Ideal)
abbrev Edges := (⟨S2x800000, .i32⟩ : BufTy).Contents (Elt Ideal)
abbrev Mat := (⟨S128x128, .f32⟩ : BufTy).Contents (Elt Ideal)
abbrev Vec128 := (⟨S128, .f32⟩ : BufTy).Contents (Elt Ideal)

/-! ## Where each stage reads its operand: (r, q) ↦ (r, 0) ↦ r for a column spread along the rows, (r, q) ↦ (0, q) ↦ q
    for a row spread down the array, (r, q), k ↦ (r, k) and (k, q) for a product, r, k ↦ (r, k) for a row sum -/

theorem col21 (r : Fin 50000) (q : Fin 128) : idx_main_v21 (ix2 r q) = ix2 r (0 : Fin 1) :=
  funext fun a => Fin.ext (by match a with | ⟨0, _⟩ => rfl | ⟨1, _⟩ => rfl)
theorem col33 (r : Fin 50000) (q : Fin 128) : idx_main_v33 (ix2 r q) = ix2 r (0 : Fin 1) :=
  funext fun a => Fin.ext (by match a with | ⟨0, _⟩ => rfl | ⟨1, _⟩ => rfl)
theorem col40 (r : Fin 50000) (q : Fin 128) : idx_main_v40 (ix2 r q) = ix2 r (0 : Fin 1) :=
  funext fun a => Fin.ext (by match a with | ⟨0, _⟩ => rfl | ⟨1, _⟩ => rfl)
theorem col45 (r : Fin 50000) (q : Fin 128) : idx_main_v45 (ix2 r q) = ix2 r (0 : Fin 1) :=
  funext fun a => Fin.ext (by match a with | ⟨0, _⟩ => rfl | ⟨1, _⟩ => rfl)
theorem vec20 (r : Fin 50000) : idx_main_v20 (ix2 r (0 : Fin 1)) = ix1 r :=
  funext fun a => Fin.ext (by match a with | ⟨0, _⟩ => rfl)
theorem vec30 (r : Fin 50000) : idx_main_v30 (ix2 r (0 : Fin 1)) = ix1 r :=
  funext fun a => Fin.ext (by match a with | ⟨0, _⟩ => rfl)
theorem vec37 (r : Fin 50000) : idx_main_v37 (ix2 r (0 : Fin 1)) = ix1 r :=
  funext fun a => Fin.ext (by match a with | ⟨0, _⟩ => rfl)
theorem row25 (r : Fin 50000) (q : Fin 128) : idx_main_v25 (ix2 r q) = ix2 (0 : Fin 1) q :=
  funext fun a => Fin.ext (by match a with | ⟨0, _⟩ => rfl | ⟨1, _⟩ => rfl)
theorem row48 (r : Fin 50000) (q : Fin 128) : idx_main_v48 (ix2 r q) = ix2 (0 : Fin 1) q :=
  funext fun a => Fin.ext (by match a with | ⟨0, _⟩ => rfl | ⟨1, _⟩ => rfl)
theorem row51 (r : Fin 50000) (q : Fin 128) : idx_main_v51 (ix2 r q) = ix2 (0 : Fin 1) q :=
  funext fun a => Fin.ext (by match a with | ⟨0, _⟩ => rfl | ⟨1, _⟩ => rfl)
theorem vec24 (q : Fin 128) : idx_main_v24 (ix2 (0 : Fin 1) q) = ix1 q :=
  funext fun a => Fin.ext (by match a with | ⟨0, _⟩ => rfl)
theorem vec47 (q : Fin 128) : idx_main_v47 (ix2 (0 : Fin 1) q) = ix1 q :=
  funext fun a => Fin.ext (by match a with | ⟨0, _⟩ => rfl)
theorem vec50 (q : Fin 128) : idx_main_v50 (ix2 (0 : Fin 1) q) = ix1 q :=
  funext fun a => Fin.ext (by match a with | ⟨0, _⟩ => rfl)
theorem lhs23 (r : Fin 50000) (q : Fin 128) (k : Fin 128) : lidx_main_v23 (ix2 r q) k = ix2 r k :=
  funext fun a => Fin.ext (by match a with | ⟨0, _⟩ => rfl | ⟨1, _⟩ => rfl)
theorem rhs23 (r : Fin 50000) (q : Fin 128) (k : Fin 128) : ridx_main_v23 (ix2 r q) k = ix2 k q :=
  funext fun a => Fin.ext (by match a with | ⟨0, _⟩ => rfl | ⟨1, _⟩ => rfl)
theorem lhs27 (r : Fin 50000) (q : Fin 128) (k : Fin 128) : lidx_main_v27 (ix2 r q) k = ix2 r k :=
  funext fun a => Fin.ext (by match a with | ⟨0, _⟩ => rfl | ⟨1, _⟩ => rfl)
theorem rhs27 (r : Fin 50000) (q : Fin 128) (k : Fin 128) : ridx_main_v27 (ix2 r q) k = ix2 k q :=
  funext fun a => Fin.ext (by match a with | ⟨0, _⟩ => rfl | ⟨1, _⟩ => rfl)
theorem sum29 (r : Fin 50000) (k : Fin 128) : idx_main_v29 (ix1 r) k = ix2 r k :=
  funext fun a => Fin.ext (by match a with | ⟨0, _⟩ => rfl | ⟨1, _⟩ => rfl)
theorem sum36 (r : Fin 50000) (k : Fin 128) : idx_main_v36 (ix1 r) k = ix2 r k :=
  funext fun a => Fin.ext (by match a with | ⟨0, _⟩ => rfl | ⟨1, _⟩ => rfl)

variable (x0 : Nodes) (x1 : Edges) (x2 : Mat) (x3 : Vec128) (x4 : Mat) (x5 x6 : Vec128)

/-! ## The stages at an entry -/

/-- The quotient stage at (r, k): the summed-neighbour array at (r, k) over node r's count clamped at 1. -/
theorem agg_apply (r : Fin 50000) (k : Fin 128) :
    val_main_v22 (F := Ideal) x0 x1 (ix2 r k)
      = agg (rowOf (val_main_v13 (F := Ideal) x0 x1) r) (val_main_v17 (F := Ideal) x1 (ix1 r)) k := by
  rw [val_main_v22_apply, val_main_v21_apply, val_main_v20_apply, val_main_v19_apply, val_main_v18_apply,
    val_main_cst_3_apply, col21 r k, vec20 r]
  rfl

/-- The linear stage at (r, q), the bias added before the second product. -/
theorem lin_apply (r : Fin 50000) (q : Fin 128) :
    val_main_v28 (F := Ideal) x0 x1 x2 x3 x4 (ix2 r q)
      = linBiasFirst (rowOf (val_main_v13 (F := Ideal) x0 x1) r) (rowOf x0 r) (val_main_v17 (F := Ideal) x1 (ix1 r))
          (matOf x2) (matOf x4) (vecOf x3) q := by
  rw [val_main_v28_apply, val_main_v26_apply, val_main_v23_apply, val_main_v27_apply, val_main_v25_apply,
    val_main_v24_apply, row25 r q, vec24 q]
  unfold linBiasFirst
  refine congrArg₂ (· + ·) (congrArg₂ (· + ·) (Finset.sum_congr rfl fun k _ => ?_) rfl) (Finset.sum_congr rfl fun k _ => ?_)
  · rw [lhs23 r q k, rhs23 r q k, agg_apply]
  · rw [lhs27 r q k, rhs27 r q k]

/-- The linear stage's row r: in the other grouping it is the row the kernel computes. -/
theorem lin_row (r : Fin 50000) :
    rowOf (val_main_v28 (F := Ideal) x0 x1 x2 x3 x4) r
      = lin (rowOf (val_main_v13 (F := Ideal) x0 x1) r) (rowOf x0 r) (val_main_v17 (F := Ideal) x1 (ix1 r))
          (matOf x2) (matOf x4) (vecOf x3) :=
  (funext fun j => lin_apply x0 x1 x2 x3 x4 r j).trans (linBiasFirst_eq _ _ _ _ _ _)

/-- The mean column at (r, 0): row r's sum (from the zero the reduction starts at) over 128. -/
theorem meanCol_apply (r : Fin 50000) :
    val_main_v32 (F := Ideal) x0 x1 x2 x3 x4 (ix2 r (0 : Fin 1)) = mean (rowOf (val_main_v28 (F := Ideal) x0 x1 x2 x3 x4) r) := by
  rw [val_main_v32_apply, val_main_v30_apply, val_main_v29_apply, val_main_v31_apply, val_main_cst_5_apply,
    val_main_cst_4_apply, vec30 r]
  unfold mean
  simp only [Ideal.hostDivf_def, Ideal.ofBits_def, Ideal.ofBits_zero_f32, zero_add, sum29, rowOf]

/-- The difference stage at (r, q): the linear stage less row r's mean (the reference computes it twice). -/
theorem centred_apply (r : Fin 50000) (q : Fin 128) :
    val_main_v34 (F := Ideal) x0 x1 x2 x3 x4 (ix2 r q) = centred (rowOf (val_main_v28 (F := Ideal) x0 x1 x2 x3 x4) r) q := by
  rw [val_main_v34_apply, val_main_v33_apply, col33 r q, meanCol_apply]
  rfl
theorem centred_again_apply (r : Fin 50000) (q : Fin 128) :
    val_main_v41 (F := Ideal) x0 x1 x2 x3 x4 (ix2 r q) = centred (rowOf (val_main_v28 (F := Ideal) x0 x1 x2 x3 x4) r) q := by
  rw [val_main_v41_apply, val_main_v40_apply, col40 r q, meanCol_apply]
  rfl

/-- The variance column at (r, 0): the sum of row r's squared differences over 128. -/
theorem varianceCol_apply (r : Fin 50000) :
    val_main_v39 (F := Ideal) x0 x1 x2 x3 x4 (ix2 r (0 : Fin 1)) = variance (rowOf (val_main_v28 (F := Ideal) x0 x1 x2 x3 x4) r) := by
  rw [val_main_v39_apply, val_main_v37_apply, val_main_v36_apply, val_main_v38_apply, val_main_cst_7_apply,
    val_main_cst_6_apply, vec37 r]
  unfold variance
  simp only [Ideal.hostDivf_def, Ideal.ofBits_def, Ideal.ofBits_zero_f32, zero_add, sum36]
  refine congrArg (fun t => Ideal.div t (Ideal.ofBits .f32 0x43000000#32)) (Finset.sum_congr rfl fun k _ => ?_)
  rw [val_main_v35_apply, centred_apply]
  exact Ideal.mulf_def _ _

/-- The normalised stage at (r, q). -/
theorem normalised_apply (r : Fin 50000) (q : Fin 128) :
    val_main_v46 (F := Ideal) x0 x1 x2 x3 x4 (ix2 r q) = normalised (rowOf (val_main_v28 (F := Ideal) x0 x1 x2 x3 x4) r) q := by
  rw [val_main_v46_apply, centred_again_apply, val_main_v45_apply, col45 r q, val_main_v44_apply, val_main_v43_apply,
    varianceCol_apply, val_main_v42_apply, val_main_cst_8_apply]
  rfl

/-- The result at (r, q): scaled by γ_q, shifted by β_q, clamped at 0. -/
theorem result_apply (r : Fin 50000) (q : Fin 128) :
    val_main_v53 (F := Ideal) x0 x1 x2 x3 x4 x5 x6 (ix2 r q) = scaledClamped (vecOf x5) (vecOf x6) (rowOf (val_main_v28 (F := Ideal) x0 x1 x2 x3 x4) r) q := by
  rw [val_main_v53_apply, val_main_v52_apply, val_main_v49_apply, normalised_apply, val_main_v48_apply, val_main_v47_apply,
    val_main_v51_apply, val_main_v50_apply, val_main_call0_v0_apply, val_main_call0_cst_apply, row48 r q, vec47 q, row51 r q,
    vec50 q]
  rfl

/-- The reference's result array is the layer's output of its arguments, with the summed-neighbour array and the
    counts its own two scatter stages. -/
theorem result_eq :
    val_main_v53 (F := Ideal) x0 x1 x2 x3 x4 x5 x6
      = layer x0 (val_main_v13 (F := Ideal) x0 x1) (val_main_v17 (F := Ideal) x1) x2 x4 x3 x5 x6 := by
  funext i
  obtain ⟨r, q, rfl⟩ : ∃ (r : Fin 50000) (q : Fin 128), i = ix2 r q := ⟨i 0, i 1, eq_ix2 i⟩
  rw [result_apply, lin_row]
  rfl

end Cert.ReferenceIdeal.RowValue

end
-- ==== Proof.lean ====
/-
  A mean-aggregating graph layer with a layer norm and a clamp at zero, computed by a blocked TensorCore kernel and by
  a plain array program, on the extended reals: the two end with the same array.

  Both programs first form, on the host and by the same operations, the sum of each node's in-neighbours' feature rows
  and the number of its in-neighbours. The kernel then runs over 10 blocks of 5000 nodes: for each node it divides
  the summed row by the count (at least 1), multiplies by W_l, adds the node's own row times W_r and the bias,
  normalises the row (mean and variance over its 128 entries, ε under the root), scales, shifts and clamps at 0.
  The reference does the same on whole arrays, adding the bias before the second product instead of after it. The
  two groupings of the three terms agree because addition of extended reals is commutative and associative; every
  other operation is the same on both sides, a change of float format being the identity and a matrix product into a
  zero accumulator being the product. So node r's output row is one function of node r's data in both programs, and
  no input has to be finite for that.

  The three frame conjuncts: the two kernel programs by their generated frames, the reference by its generated run
  with the result dropped. The idealization rewrote nothing, so the fourth conjunct is trivial. The fifth sets the
  kernel's run (its output array named, block by block, then as the layer's output) beside the reference's run
  (its result read stage by stage as the layer's output), the arguments agreeing.
-/
import proofs.«143415_j35115652612241_2_alg».proof.Defs
import proofs.«143415_j35115652612241_2_alg».proof.Proof.Gen.Kernel
import proofs.«143415_j35115652612241_2_alg».proof.Proof.Gen.Kernel.Skeleton
import proofs.«143415_j35115652612241_2_alg».proof.Proof.Gen.Kernel.Launch
import proofs.«143415_j35115652612241_2_alg».proof.Proof.Gen.Kernel.Points
import proofs.«143415_j35115652612241_2_alg».proof.Proof.Gen.Kernel.Frame
import proofs.«143415_j35115652612241_2_alg».proof.Proof.Gen.KernelIdeal
import proofs.«143415_j35115652612241_2_alg».proof.Proof.Gen.KernelIdeal.Skeleton
import proofs.«143415_j35115652612241_2_alg».proof.Proof.Gen.KernelIdeal.Launch
import proofs.«143415_j35115652612241_2_alg».proof.Proof.Gen.KernelIdeal.Points
import proofs.«143415_j35115652612241_2_alg».proof.Proof.Gen.KernelIdeal.Frame
import proofs.«143415_j35115652612241_2_alg».proof.Proof.Gen.ReferenceIdeal
import proofs.«143415_j35115652612241_2_alg».proof.Proof.Gen.Pre_finite_inputs
import proofs.«143415_j35115652612241_2_alg».proof.Proof.Gen.KernelIdeal.Value
import proofs.«143415_j35115652612241_2_alg».proof.Proof.Gen.ReferenceIdeal.Run
import proofs.«143415_j35115652612241_2_alg».proof.Proof.Gen.ReferenceIdeal.Read
import proofs.«143415_j35115652612241_2_alg».proof.Proof.HostWindows
import proofs.«143415_j35115652612241_2_alg».proof.Proof.ReferenceRow
import Idealize.ShloMosaic.Adequacy
import Idealize.ShloMosaic.Init

noncomputable section

namespace Cert.Proof

open Idealize.ShloMosaic Idealize.ShloMosaic.TcCoe Idealize.SL.Sem

/-- The kernel as printed runs, nothing faults, and its arguments end unchanged. -/
theorem frame_kernel : Cert.frame_Kernel := fun m ρ _ => Cert.Kernel.Gen.frame m ρ

/-- The same of the kernel read on the extended reals. -/
theorem frame_kernel_ideal : Cert.frame_KernelIdeal := fun m ρ _ => Cert.KernelIdeal.Gen.frame m ρ

/-- The reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the layer's output of those arguments: the
    kernel's output array block by block, the reference's result stage by stage. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RowValue.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
